-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4096x1024 : Shape := ⟨2, ![4096, 1024]⟩
abbrev S2048 : Shape := ⟨1, ![2048]⟩
abbrev S2048x1024 : Shape := ⟨2, ![2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S4x2048x1024 .f32) (main_arg1 : FVec F S4096x1024 .f32) (main_arg2 : FVec F S2048 .f32) (main_arg3 : FVec F S2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Kernel.lean ====
abbrev S4x2048x1024 : Shape := ⟨3, ![4, 2048, 1024]⟩
abbrev S4096x1024 : Shape := ⟨2, ![4096, 1024]⟩
abbrev S2048 : Shape := ⟨1, ![2048]⟩
abbrev S2048x1024 : Shape := ⟨2, ![2048, 1024]⟩
abbrev S8192x1024 : Shape := ⟨2, ![8192, 1024]⟩
abbrev S2048x1 : Shape := ⟨2, ![2048, 1]⟩
abbrev S1x2048 : Shape := ⟨2, ![1, 2048]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S8192x4096 : Shape := ⟨2, ![8192, 4096]⟩
abbrev S128x1024 : Shape := ⟨2, ![128, 1024]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S4x2048x4096 : Shape := ⟨3, ![4, 2048, 4096]⟩

abbrev nBuf : Space → Nat
  | .hbm => 14
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S2048, .f32⟩
  | .hbm, ⟨3, _⟩ => ⟨S2048x1024, .f32⟩
  | .hbm, ⟨4, _⟩ => ⟨S8192x1024, .f32⟩
  | .hbm, ⟨5, _⟩ => ⟨S2048x1, .f32⟩
  | .hbm, ⟨6, _⟩ => ⟨S2048x1024, .f32⟩
  | .hbm, ⟨7, _⟩ => ⟨S2048x1024, .f32⟩
  | .hbm, ⟨8, _⟩ => ⟨S2048x1024, .bf16⟩
  | .hbm, ⟨9, _⟩ => ⟨S2048, .f32⟩
  | .hbm, ⟨10, _⟩ => ⟨S1x2048, .f32⟩
  | .hbm, ⟨11, _⟩ => ⟨S4096x2048, .bf16⟩
  | .hbm, ⟨12, _⟩ => ⟨S8192x4096, .f32⟩
  | .hbm, ⟨13, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S128x1024, .f32⟩
  | .local _ .vmem, ⟨7, _⟩ => ⟨S128x1024, .f32⟩
  | .local _ .vmem, ⟨8, _⟩ => ⟨S2048x1024, .bf16⟩
  | .local _ .vmem, ⟨9, _⟩ => ⟨S1x2048, .f32⟩
  | .local _ .vmem, ⟨10, _⟩ => ⟨S4096x2048, .bf16⟩
  | .local _ .vmem, ⟨11, _⟩ => ⟨S128x4096, .f32⟩
  | .local _ .vmem, ⟨12, _⟩ => ⟨S128x4096, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S4x2048x1024_S8192x1024 : S4x2048x1024.ShapeCasts S8192x1024
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  bitsLt_bf16_f32 : FTy.bits .bf16 < FTy.bits .f32
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S512x1024_S512 : S512x1024.Reduces [1] S512
  shapeCasts_S512_S512x1 : S512.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  reduces_S128x1024_S128 : S128x1024.Reduces [1] S128
  shapeCasts_S128_S128x1 : S128.ShapeCasts S128x1
  broadcasts_S128x1_S128x2048 : S128x1.Broadcasts S128x2048
  broadcasts_S1x2048_S128x2048 : S1x2048.Broadcasts S128x2048
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S128x4096_S128x4096_0_0 : ∀ a, (![0, 0] : Fin 2 → Nat) a + S128x4096.size a ≤ S128x4096.size a
  h_S128x4096 : 0 < S128x4096.numel
  shapeCasts_S8192x4096_S4x2048x4096 : S8192x4096.ShapeCasts S4x2048x4096
  dot_S512x1024_S2048x1024_S512x2048_1_1_0_0_n_n_wf : DotDims.WF S512x1024 S2048x1024 S512x2048 [1] [1] [0] [0] [] []
  dot_S128x1024_S2048x1024_S128x2048_1_1_0_0_n_n_wf : DotDims.WF S128x1024 S2048x1024 S128x2048 [1] [1] [0] [0] [] []
  dot_S128x2048_S4096x2048_S128x4096_1_1_0_0_n_n_wf : DotDims.WF S128x2048 S4096x2048 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .bf16 = 32 ∨ (Rect.block (s := S4096x2048) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S8192x1024.size a
  hwx1_0 : ∀ i : grid1.Coords, EltTy.bits .f32 = 32 ∨ (Rect.block (s := S8192x1024) S128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x1024.size a
  hwx1_1 : ∀ i : grid1.Coords, EltTy.bits .bf16 = 32 ∨ (Rect.block (s := S2048x1024) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x2048.size a ≤ S4096x2048.size a
  hwx1_3 : ∀ i : grid1.Coords, EltTy.bits .bf16 = 32 ∨ (Rect.block (s := S4096x2048) S4096x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x4096.size a ≤ S8192x4096.size a
  hwx1_4 : ∀ i : grid1.Coords, EltTy.bits .f32 = 32 ∨ (Rect.block (s := S8192x4096) S128x4096.size (cc1_transform_4 i) (hinb1_4 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S4096x2048_S128x4096_1_1_0_0_n_n : DotDims S128x2048 S4096x2048 S128x4096 where
  lhsContracting := [1]
  rhsContracting := [1]
  lhsNonContracting := [0]
  rhsNonContracting := [0]
  lhsBatch := []
  rhsBatch := []
  wf := dot_S128x2048_S4096x2048_S128x4096_1_1_0_0_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S4096x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S128x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S4096x1024 : Shape := ⟨2, ![4096, 1024]⟩
abbrev S2048 : Shape := ⟨1, ![2048]⟩
abbrev S2048x1024 : Shape := ⟨2, ![2048, 1024]⟩
abbrev S_ : Shape := ⟨0, ![]⟩
abbrev S2048x1 : Shape := ⟨2, ![2048, 1]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩
abbrev S4x2048x2048 : Shape := ⟨3, ![4, 2048, 2048]⟩
abbrev S4x2048 : Shape := ⟨2, ![4, 2048]⟩
abbrev S4x2048x1 : Shape := ⟨3, ![4, 2048, 1]⟩
abbrev S1x1x2048 : Shape := ⟨3, ![1, 1, 2048]⟩
abbrev S4x2048x4096 : Shape := ⟨3, ![4, 2048, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S2048, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1024, .f32⟩
  | .hbm, ⟨8, _⟩ => ⟨S2048x1024, .f32⟩
  | .hbm, ⟨9, _⟩ => ⟨S4096x2048, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S4x2048x2048, .f32⟩
  | .hbm, ⟨34, _⟩ => ⟨S4x2048x1024, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S2048, .f32⟩
  | .hbm, ⟨42, _⟩ => ⟨S1x1x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S4x2048x2048, .f32⟩
  | .hbm, ⟨50, _⟩ => ⟨S4x2048x2048, .f32⟩
  | .hbm, ⟨51, _⟩ => ⟨S1x1x2048, .f32⟩
  | .hbm, ⟨52, _⟩ => ⟨S4x2048x2048, .f32⟩
  | .hbm, ⟨53, _⟩ => ⟨S4x2048x2048, .f32⟩
  | .hbm, ⟨54, _⟩ => ⟨S4x2048x4096, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S2048_S1x2048_1 : S2048.BroadcastsInDim S1x2048 (![1] : Fin 1 → Fin S1x2048.rank)
  bcast_S4096x1_S4096x2048_0_1 : S4096x1.BroadcastsInDim S4096x2048 (![0, 1] : Fin 2 → Fin S4096x2048.rank)
  bcast_S1x2048_S4096x2048_0_1 : S1x2048.BroadcastsInDim S4096x2048 (![0, 1] : Fin 2 → Fin S4096x2048.rank)
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S2048_S1x1x2048_2 : S2048.BroadcastsInDim S1x1x2048 (![2] : Fin 1 → Fin S1x1x2048.rank)
  bcast_S4x2048x1_S4x2048x2048_0_1_2 : S4x2048x1.BroadcastsInDim S4x2048x2048 (![0, 1, 2] : Fin 3 → Fin S4x2048x2048.rank)
  bcast_S1x1x2048_S4x2048x2048_0_1_2 : S1x1x2048.BroadcastsInDim S4x2048x2048 (![0, 1, 2] : Fin 3 → Fin S4x2048x2048.rank)
  dot_S4096x1024_S2048x1024_S4096x2048_1_1_0_0_n_n_wf : DotDims.WF S4096x1024 S2048x1024 S4096x2048 [1] [1] [0] [0] [] []
  dot_S4x2048x1024_S2048x1024_S4x2048x2048_2_1_01_0_n_n_wf : DotDims.WF S4x2048x1024 S2048x1024 S4x2048x2048 [2] [1] [0, 1] [0] [] []
  dot_S4x2048x2048_S4096x2048_S4x2048x4096_2_1_01_0_n_n_wf : DotDims.WF S4x2048x2048 S4096x2048 S4x2048x4096 [2] [1] [0, 1] [0] [] []

variable [Facts₀]

def dot_S4096x1024_S2048x1024_S4096x2048_1_1_0_0_n_n : DotDims S4096x1024 S2048x1024 S4096x2048 where
  lhsContracting := [1]
  rhsContracting := [1]
  lhsNonContracting := [0]
  rhsNonContracting := [0]
  lhsBatch := []
  rhsBatch := []
  wf := dot_S4096x1024_S2048x1024_S4096x2048_1_1_0_0_n_n_wf
def dot_S4x2048x1024_S2048x1024_S4x2048x2048_2_1_01_0_n_n : DotDims S4x2048x1024 S2048x1024 S4x2048x2048 where
  lhsContracting := [2]
  rhsContracting := [1]
  lhsNonContracting := [0, 1]
  rhsNonContracting := [0]
  lhsBatch := []
  rhsBatch := []
  wf := dot_S4x2048x1024_S2048x1024_S4x2048x2048_2_1_01_0_n_n_wf
def dot_S4x2048x2048_S4096x2048_S4x2048x4096_2_1_01_0_n_n : DotDims S4x2048x2048 S4096x2048 S4x2048x4096 where
  lhsContracting := [2]
  rhsContracting := [1]
  lhsNonContracting := [0, 1]
  rhsNonContracting := [0]
  lhsBatch := []
  rhsBatch := []
  wf := dot_S4x2048x2048_S4096x2048_S4x2048x4096_2_1_01_0_n_n_wf

class Facts : Prop extends Facts₀ where

variable [Facts]
-- ==== Proof.KernelRun.lean ====
/-
  The kernel program's run with its result named.

  @main is four segments: seven host operations (the reshape of `x`, the rescaled projection matrix, the squared
  weights), the two pipelined kernels, and one host operation (the reshape of the second kernel's output). Every weakly
  fair execution passes through them in order, each segment entered at the buffer contents the previous one leaves. At
  the end every unscoped buffer holds the contents at the last boundary; read at the result buffer this names the
  result, and read at the four arguments it gives them back unchanged.
-/
import proofs.«139920_j10093173146229_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, with the result buffer at the contents of the last
    segment boundary and the four arguments as launched. -/
theorem run_main : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.RunValue

end
-- ==== Proof.HostStretch.lean ====
/-
  The host operations around the two kernels, read at an index.

  Before the kernels @main flattens `x` `[4, 2048, 1024]` to `[8192, 1024]` (row `r` is row `r mod 2048` of batch
  `r div 2048`), rescales row `m` of the random matrix by `ξ_m` (the projection matrix; its change of float format is
  the identity on extended reals), and squares the `ξ_m` into a `[1, 2048]` row. The weight matrix passes through
  unchanged. After the kernels the `[8192, 4096]` output is reshaped to `[4, 2048, 4096]`: entry `(b, s, o)` is
  entry `(2048 b + s, o)`.
-/
import proofs.«139920_j10093173146229_2_alg».proof.Proof.Gen.KernelIdeal.Frame
import Idealize.ShloMosaic.Lib.StableHlo.Run
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.HostStretch

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The four argument arrays as launched, as functions into the extended reals: `x`, -/
abbrev argX (c : Dev nD) : S4x2048x1024.Idx → EReal := m ((c : Thread nD τ).loc main_arg0)
/-- the weight matrix, -/
abbrev argW (c : Dev nD) : S4096x1024.Idx → EReal := m ((c : Thread nD τ).loc main_arg1)
/-- the rescalings `ξ`, -/
abbrev argXi (c : Dev nD) : S2048.Idx → EReal := m ((c : Thread nD τ).loc main_arg2)
/-- and the random matrix. -/
abbrev argG (c : Dev nD) : S2048x1024.Idx → EReal := m ((c : Thread nD τ).loc main_arg3)

/-- The first kernel is entered with `x` flattened: row `r` of the `[8192, 1024]` array is row `r mod 2048` of batch `r div 2048`. -/
theorem flatRows_apply (c : Dev nD) (r : Fin 8192) (k : Fin 1024) :
    (V1 m ρ c main_v0 : S8192x1024.Idx → EReal) (ix2 r k)
      = argX m c (ix3 (⟨r.val / 2048, by omega⟩ : Fin 4) (⟨r.val % 2048, by omega⟩ : Fin 2048) k) := by
  have e : (V1 m ρ c main_v0 : S8192x1024.Idx → EReal)
      = shapeCast S8192x1024 (m ((c : Thread nD τ).loc main_arg0)) shapeCasts_S4x2048x1024_S8192x1024 := by
    show StableHlo.after hostOps0 (W0 m ρ c) (Proc.devRef .tc main_v0) = _
    after_results <;> rfl
  rw [e]
  exact shapeCast_apply (s := S4x2048x1024) (t := S8192x1024) _ _ _ _ (by
    refine (Shape.rowMajor_val_three (d := ![4, 2048, 1024]) _).trans ?_
    refine Eq.trans ?_ (Shape.rowMajor_val_two (d := ![8192, 1024]) _).symm
    show ((r.val / 2048) * 2048 + r.val % 2048) * 1024 + k.val = r.val * 1024 + k.val
    have := Nat.div_add_mod r.val 2048
    omega)

/-- The projection matrix the kernels are entered with: row `q` of the random matrix rescaled by `ξ_q`. -/
theorem proj_apply (c : Dev nD) (q : Fin 2048) (k : Fin 1024) :
    (V1 m ρ c main_v4 : S2048x1024.Idx → EReal) (ix2 q k)
      = argXi m c (ix1 q) * argG m c (ix2 q k) := by
  have e : (V1 m ρ c main_v4 : S2048x1024.Idx → EReal)
      = truncf (F := Ideal) .bf16 (mulf (F := Ideal) (φ := .f32) (broadcastInDim S2048x1024 ![0, 1] bcast_S2048x1_S2048x1024_0_1
          (broadcastInDim S2048x1 ![0] bcast_S2048_S2048x1_0 (argXi m c))) (argG m c)) bitsLt_bf16_f32 := by
    show StableHlo.after hostOps0 (W0 m ρ c) (Proc.devRef .tc main_v4) = _
    after_results <;> rfl
  rw [e]
  show broadcastInDim S2048x1024 ![0, 1] bcast_S2048x1_S2048x1024_0_1
        (broadcastInDim S2048x1 ![0] bcast_S2048_S2048x1_0 (argXi m c)) (ix2 q k)
      * argG m c (ix2 q k) = _
  refine congrArg (fun z : EReal => z * argG m c (ix2 q k)) ?_
  refine (broadcastInDim_apply _ bcast_S2048x1_S2048x1024_0_1 _ (ix2 q k) (ix2 q (0 : Fin 1)) (fun a => match a with
    | ⟨0, _⟩ => by show q.val = if (2048 : Nat) = 1 then 0 else q.val; rw [if_neg (by decide)]
    | ⟨1, _⟩ => by show 0 = if (1 : Nat) = 1 then 0 else k.val; rw [if_pos rfl])).trans ?_
  exact broadcastInDim_apply _ bcast_S2048_S2048x1_0 _ (ix2 q (0 : Fin 1)) (ix1 q) (fun a => match a with
    | ⟨0, _⟩ => by show q.val = if (2048 : Nat) = 1 then 0 else q.val; rw [if_neg (by decide)])

/-- The weights the kernels are entered with: `ξ_q²`, as one row. -/
theorem sq_apply (c : Dev nD) (u : Fin 1) (q : Fin 2048) :
    (V1 m ρ c main_v6 : S1x2048.Idx → EReal) (ix2 u q)
      = argXi m c (ix1 q) * argXi m c (ix1 q) := by
  have e : (V1 m ρ c main_v6 : S1x2048.Idx → EReal)
      = shapeCast S1x2048 (mulf (F := Ideal) (φ := .f32) (argXi m c) (argXi m c)) shapeCasts_S2048_S1x2048 := by
    show StableHlo.after hostOps0 (W0 m ρ c) (Proc.devRef .tc main_v6) = _
    after_results <;> rfl
  rw [e]
  exact shapeCast_a_1a_apply _ shapeCasts_S2048_S1x2048 u q

/-- No host operation writes the weight matrix: the first kernel is entered with it as launched. -/
theorem weightRows_eq (c : Dev nD) : V1 m ρ c main_arg1 = m ((c : Thread nD τ).loc main_arg1) := by
  show StableHlo.after hostOps0 (W0 m ρ c) (Proc.devRef .tc main_arg1) = _
  after_results

/-- The result is the second kernel's output reshaped: entry `(b, s, o)` is entry `(2048 b + s, o)`. -/
theorem result_apply (c : Dev nD) (b : Fin 4) (s : Fin 2048) (o : Fin 4096) :
    (W4 m ρ c (Proc.devRef .tc main_v9) : S4x2048x4096.Idx → EReal) (ix3 b s o)
      = (W3 m ρ c (Proc.devRef .tc main_v8) : S8192x4096.Idx → EReal) (ix2 (⟨b.val * 2048 + s.val, by omega⟩ : Fin 8192) o) := by
  have e : (W4 m ρ c (Proc.devRef .tc main_v9) : S4x2048x4096.Idx → EReal)
      = shapeCast S4x2048x4096 (W3 m ρ c (Proc.devRef .tc main_v8)) shapeCasts_S8192x4096_S4x2048x4096 := by
    show StableHlo.after hostOps2 (W3 m ρ c) (Proc.devRef .tc main_v9) = _
    after_results <;> rfl
  rw [e]
  exact shapeCast_apply (s := S8192x4096) (t := S4x2048x4096) _ _ _ _ (by
    refine (Shape.rowMajor_val_two (d := ![8192, 4096]) _).trans ?_
    refine Eq.trans ?_ (Shape.rowMajor_val_three (d := ![4, 2048, 4096]) _).symm
    show (b.val * 2048 + s.val) * 4096 + o.val = (b.val * 2048 + s.val) * 4096 + o.val
    rfl)

end Cert.KernelIdeal.HostStretch

end
-- ==== Proof.Spec.lean ====
/-
  The function both programs compute, entry by entry, over the extended reals.

  A row `v` of 1024 numbers is mapped to 2048 positive random features. Feature `m` uses row `m` of a projection
  matrix `proj` (here the random matrix with row `m` rescaled by `ξ_m`) and a weight `sq m` (here `ξ_m²`):

      feat v (proj m) (sq m) = c · exp (⟨v, proj m⟩ − (½ · ⟨v, v⟩) · sq m),      c the float nearest 1/√2048.

  The result pairs every row of `x` with every row of the weight matrix through their feature vectors:

      result[b, s, o] = Σ_m feat x[b, s, ·] (proj m) (sq m) · feat w[o, ·] (proj m) (sq m).

  The two float constants are kept as the words both programs print; neither is ever evaluated.
-/
import Idealize.ShloMosaic.PureOps.Ideal.Laws
import Idealize.ShloMosaic.Lib.ValueIdx

noncomputable section

open scoped BigOperators

namespace Cert.RandomFeature

open Idealize.ShloMosaic Idealize.ShloMosaic.ValueIdx

/-- One random feature of the row `v`: `c · exp (⟨v, g⟩ − (½ · ⟨v, v⟩) · a)` for the projection row `g` and the weight `a`. -/
def feat (v g : Fin 1024 → EReal) (a : EReal) : EReal :=
  Ideal.ofBits .f32 0x3CB504F3#32
    * Ideal.exp ((∑ k : Fin 1024, v k * g k) - (Ideal.ofBits .f32 0x3F000000#32 * ∑ k : Fin 1024, v k * v k) * a)

/-- The pairing of two rows through their feature vectors: `Σ_m feat v (proj m) (sq m) · feat w (proj m) (sq m)`. -/
def paired (v w : Fin 1024 → EReal) (proj : Fin 2048 → Fin 1024 → EReal) (sq : Fin 2048 → EReal) : EReal :=
  ∑ m : Fin 2048, feat v (proj m) (sq m) * feat w (proj m) (sq m)

/-- Row `m` of the projection matrix: row `m` of `gs` rescaled by `ξ_m`. -/
def projRow (xis : (⟨1, ![2048]⟩ : Shape).Idx → EReal) (gs : (⟨2, ![2048, 1024]⟩ : Shape).Idx → EReal) (m : Fin 2048) (k : Fin 1024) : EReal :=
  xis (ix1 m) * gs (ix2 m k)

/-- The weight of feature `m`: `ξ_m²`. -/
def sqWeight (xis : (⟨1, ![2048]⟩ : Shape).Idx → EReal) (m : Fin 2048) : EReal := xis (ix1 m) * xis (ix1 m)

/-- The whole result `[4, 2048, 4096]` from the four arguments. -/
def result (x : (⟨3, ![4, 2048, 1024]⟩ : Shape).Idx → EReal) (w : (⟨2, ![4096, 1024]⟩ : Shape).Idx → EReal)
    (xis : (⟨1, ![2048]⟩ : Shape).Idx → EReal) (gs : (⟨2, ![2048, 1024]⟩ : Shape).Idx → EReal) :
    (⟨3, ![4, 2048, 4096]⟩ : Shape).Idx → EReal :=
  fun i => paired (fun k => x (ix3 (i 0) (i 1) k)) (fun k => w (ix2 (i 2) k)) (projRow xis gs) (sqWeight xis)

end Cert.RandomFeature

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.FeatureBody.lean ====
/-
  The arithmetic both kernel bodies share, read at one entry.

  From a block of `R` rows `x0` `[R, 1024]`, the projection matrix `x1` `[2048, 1024]` and the weights `x2` `[1, 2048]`
  a body forms `c · exp (x0 · x1ᵀ − (½ · rowsum (x0 ∘ x0)) · x2)`, an `[R, 2048]` block. Entry `(p, q)` is the feature
  `feat` of row `p` of `x0` against row `q` of `x1` with weight `x2[0, q]`: the matrix product's entry is the inner
  product of the two rows, the row sum is the inner product of row `p` with itself, the two broadcasts re-read the row's
  one entry and the weights' one row, and everything else acts entry by entry. The row count `R` is arbitrary.
-/
import proofs.«139920_j10093173146229_2_alg».proof.Proof.Spec
import proofs.«139920_j10093173146229_2_alg».proof.Proof.LibDotLastAxes
import proofs.«139920_j10093173146229_2_alg».proof.Proof.LibKeepdimsLayout
import Idealize.ShloMosaic.Lib.ValueLayout
import Idealize.ShloMosaic.Lib.Pipeline.Value
import Idealize.ShloMosaic.PureOps.Ideal.Laws

noncomputable section

open scoped BigOperators

namespace Cert.RandomFeature

open Idealize.ShloMosaic Idealize.ShloMosaic.ValueIdx

/-- Over a rank-2 shape reduced along its last axis, the source index above row `p` with coordinate `k` inserted is `(p, k)`. -/
theorem lift_lastAxis {R K : ℕ} (h : (⟨2, ![R, K]⟩ : Shape).Reduces [1] ⟨1, ![R]⟩) (p : Fin R) (k : Fin K) :
    h.lift (ix1 p) k = ix2 p k := by
  funext c
  apply Fin.ext
  refine (h.lift_val (ix1 p) k c).trans ?_
  match c with
  | ⟨0, _⟩ => first | rfl | simp [Shape.Reduces.liftVal]
  | ⟨1, _⟩ => first | rfl | simp [Shape.Reduces.liftVal]

/-- The sum of a `[R, K]` block along its last axis, read at row `p`, is the sum of that row's entries. -/
theorem rowSum_apply {R K : ℕ} (h : (⟨2, ![R, K]⟩ : Shape).Reduces [1] ⟨1, ![R]⟩) (src : FVec Ideal ⟨2, ![R, K]⟩ .f32) (p : Fin R) :
    multiReduction .add [1] ⟨1, ![R]⟩ src 0x00000000#32 h (.inl rfl) rfl (ix1 p) = ∑ k : Fin K, src (ix2 p k) := by
  refine (Ideal.multiReduction_add_single src 0x00000000#32 h (.inl rfl) rfl (ix1 p)).trans ?_
  exact Finset.sum_congr rfl fun k _ => congrArg src (lift_lastAxis h p k)

/-- THE SHARED BODY at entry `(p, q)` is `feat` of row `p` of the row block against row `q` of the projection matrix. -/
theorem featBody_apply {R : ℕ} (D : DotDims ⟨2, ![R, 1024]⟩ ⟨2, ![2048, 1024]⟩ ⟨2, ![R, 2048]⟩)
    (hr : D.contr.rank = 1) (hs : D.contr.size ⟨0, by omega⟩ = 1024)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (hbits : FTy.bits .bf16 < FTy.bits .f32)
    (hred : (⟨2, ![R, 1024]⟩ : Shape).Reduces [1] ⟨1, ![R]⟩)
    (hcol : (⟨1, ![R]⟩ : Shape).ShapeCasts ⟨2, ![R, 1]⟩)
    (hbc : (⟨2, ![R, 1]⟩ : Shape).Broadcasts ⟨2, ![R, 2048]⟩)
    (hbr : (⟨2, ![1, 2048]⟩ : Shape).Broadcasts ⟨2, ![R, 2048]⟩)
    (x0 : FVec Ideal ⟨2, ![R, 1024]⟩ .f32) (x1 : FVec Ideal ⟨2, ![2048, 1024]⟩ .bf16) (x2 : FVec Ideal ⟨2, ![1, 2048]⟩ .f32)
    (p : Fin R) (q : Fin 2048) :
    mulf (broadcast ⟨2, ![R, 2048]⟩ (Scalar.ofBits (F := Ideal) .f32 0x3CB504F3#32))
      (exp (subf (matmul D none (truncf .bf16 x0 hbits) x1 (constant ⟨2, ![R, 2048]⟩ .f32 0x00000000#32))
        (mulf (broadcastTo ⟨2, ![R, 2048]⟩ (mulf (broadcast ⟨2, ![R, 1]⟩ (Scalar.ofBits (F := Ideal) .f32 0x3F000000#32))
            (shapeCast ⟨2, ![R, 1]⟩ (multiReduction .add [1] ⟨1, ![R]⟩ (mulf x0 x0) 0x00000000#32 hred (.inl rfl) rfl) hcol)) hbc)
          (broadcastTo ⟨2, ![R, 2048]⟩ x2 hbr)))) (ix2 p q)
      = feat (fun k => x0 (ix2 p k)) (fun k => x1 (ix2 q k)) (x2 (ix2 (0 : Fin 1) q)) := by
  have hdot : matmul D none (truncf .bf16 x0 hbits) x1 (constant ⟨2, ![R, 2048]⟩ .f32 0x00000000#32) (ix2 p q)
      = ∑ k : Fin 1024, x0 (ix2 p k) * x1 (ix2 q k) :=
    DotLastAxes.matmul_zero_apply D hr hs hl0 hl1 hr0 hr1 none (truncf .bf16 x0 hbits) x1 p q
  have hcolv : broadcastTo ⟨2, ![R, 2048]⟩ (mulf (broadcast ⟨2, ![R, 1]⟩ (Scalar.ofBits (F := Ideal) .f32 0x3F000000#32))
        (shapeCast ⟨2, ![R, 1]⟩ (multiReduction .add [1] ⟨1, ![R]⟩ (mulf x0 x0) 0x00000000#32 hred (.inl rfl) rfl) hcol)) hbc (ix2 p q)
      = Ideal.ofBits .f32 0x3F000000#32 * ∑ k : Fin 1024, x0 (ix2 p k) * x0 (ix2 p k) := by
    refine (Cert.LayoutKeepdims.broadcastTo_a1_ab_apply _ hbc p q).trans ?_
    show Ideal.ofBits .f32 0x3F000000#32 * shapeCast ⟨2, ![R, 1]⟩ _ hcol (ix2 p (0 : Fin 1)) = _
    refine congrArg (fun z : EReal => Ideal.ofBits .f32 0x3F000000#32 * z) ?_
    refine (Cert.LayoutKeepdims.shapeCast_a_a1_apply _ hcol p (0 : Fin 1)).trans ?_
    exact rowSum_apply hred (mulf x0 x0) p
  have hrow : broadcastTo ⟨2, ![R, 2048]⟩ x2 hbr (ix2 p q) = x2 (ix2 (0 : Fin 1) q) :=
    broadcastTo_1b_ab_apply x2 hbr p q
  have key : ∀ a a' b b' c c' : EReal, a = a' → b = b' → c = c' →
      Ideal.ofBits .f32 0x3CB504F3#32 * Ideal.exp (a - b * c) = Ideal.ofBits .f32 0x3CB504F3#32 * Ideal.exp (a' - b' * c') := by
    intro a a' b b' c c' h1 h2 h3; rw [h1, h2, h3]
  exact key _ _ _ _ _ _ hdot hcolv hrow

end Cert.RandomFeature

end
-- ==== Proof.Payloads.lean ====
/-
  What each kernel body stores, read at one entry of its output block.

  The first kernel's body stores, for a block of 512 weight rows, the `[512, 2048]` block of their random features: entry
  `(p, q)` is `feat` of row `p` against projection row `q`. The second kernel's body forms the same features for a block of
  128 rows of `x` and multiplies them against the whole `[4096, 2048]` feature matrix of the weights, contracting the
  feature axis: entry `(p, o)` is `Σ_m feat (row p) (proj m) (sq m) · W[o, m]`. All three matrix products contract the last axis
  of both operands; the facts below say so of each printed record of dimension numbers.
-/
import proofs.«139920_j10093173146229_2_alg».proof.Proof.Gen.KernelIdeal.Skeleton
import proofs.«139920_j10093173146229_2_alg».proof.Proof.FeatureBody

noncomputable section

open scoped BigOperators

namespace Cert.KernelIdeal.Payload

open Cert.KernelIdeal Cert.KernelIdeal.Gen Idealize.ShloMosaic Idealize.ShloMosaic.ValueIdx Cert.RandomFeature

/-! ## The three matrix products' dimension numbers -/

/-- In `dot_S512x1024_S2048x1024_S512x2048_1_1_0_0_n_n` the left operand's row is the result's row, -/
theorem rows512_l0 (j : S512x2048.Idx) (q : dot_S512x1024_S2048x1024_S512x2048_1_1_0_0_n_n.contr.Idx) : (dot_S512x1024_S2048x1024_S512x2048_1_1_0_0_n_n.lhsIdx j q 0).val = (j 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
/-- its column the contraction's coordinate, -/
theorem rows512_l1 (j : S512x2048.Idx) (q : dot_S512x1024_S2048x1024_S512x2048_1_1_0_0_n_n.contr.Idx) : (dot_S512x1024_S2048x1024_S512x2048_1_1_0_0_n_n.lhsIdx j q 1).val = (q ⟨0, by decide⟩).val :=
  dot_S512x1024_S2048x1024_S512x2048_1_1_0_0_n_n.lhsIdx_val_of_single rfl j q
/-- the right operand's row is the result's column, -/
theorem rows512_r0 (j : S512x2048.Idx) (q : dot_S512x1024_S2048x1024_S512x2048_1_1_0_0_n_n.contr.Idx) : (dot_S512x1024_S2048x1024_S512x2048_1_1_0_0_n_n.rhsIdx j q 0).val = (j 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
/-- and its column the contraction's coordinate. -/
theorem rows512_r1 (j : S512x2048.Idx) (q : dot_S512x1024_S2048x1024_S512x2048_1_1_0_0_n_n.contr.Idx) : (dot_S512x1024_S2048x1024_S512x2048_1_1_0_0_n_n.rhsIdx j q 1).val = (q ⟨0, by decide⟩).val :=
  dot_S512x1024_S2048x1024_S512x2048_1_1_0_0_n_n.rhsIdx_val_of_single rfl j q

/-- In `dot_S128x1024_S2048x1024_S128x2048_1_1_0_0_n_n` the left operand's row is the result's row, -/
theorem rows128_l0 (j : S128x2048.Idx) (q : dot_S128x1024_S2048x1024_S128x2048_1_1_0_0_n_n.contr.Idx) : (dot_S128x1024_S2048x1024_S128x2048_1_1_0_0_n_n.lhsIdx j q 0).val = (j 0).val := by
  unfold DotDims.lhsIdx
  rw [dif_neg (show ¬(0 : Fin S128x1024.rank) ∈ dot_S128x1024_S2048x1024_S128x2048_1_1_0_0_n_n.lhsBatch by decide), dif_pos (show (0 : Fin S128x1024.rank) ∈ dot_S128x1024_S2048x1024_S128x2048_1_1_0_0_n_n.lhsNonContracting by decide)]
  rfl
/-- its column the contraction's coordinate, -/
theorem rows128_l1 (j : S128x2048.Idx) (q : dot_S128x1024_S2048x1024_S128x2048_1_1_0_0_n_n.contr.Idx) : (dot_S128x1024_S2048x1024_S128x2048_1_1_0_0_n_n.lhsIdx j q 1).val = (q ⟨0, by decide⟩).val :=
  dot_S128x1024_S2048x1024_S128x2048_1_1_0_0_n_n.lhsIdx_val_of_single rfl j q
/-- the right operand's row is the result's column, -/
theorem rows128_r0 (j : S128x2048.Idx) (q : dot_S128x1024_S2048x1024_S128x2048_1_1_0_0_n_n.contr.Idx) : (dot_S128x1024_S2048x1024_S128x2048_1_1_0_0_n_n.rhsIdx j q 0).val = (j 1).val := by
  unfold DotDims.rhsIdx
  rw [dif_neg (show ¬(0 : Fin S2048x1024.rank) ∈ dot_S128x1024_S2048x1024_S128x2048_1_1_0_0_n_n.rhsBatch by decide), dif_pos (show (0 : Fin S2048x1024.rank) ∈ dot_S128x1024_S2048x1024_S128x2048_1_1_0_0_n_n.rhsNonContracting by decide)]
  rfl
/-- and its column the contraction's coordinate. -/
theorem rows128_r1 (j : S128x2048.Idx) (q : dot_S128x1024_S2048x1024_S128x2048_1_1_0_0_n_n.contr.Idx) : (dot_S128x1024_S2048x1024_S128x2048_1_1_0_0_n_n.rhsIdx j q 1).val = (q ⟨0, by decide⟩).val :=
  dot_S128x1024_S2048x1024_S128x2048_1_1_0_0_n_n.rhsIdx_val_of_single rfl j q

/-- In `dot_S128x2048_S4096x2048_S128x4096_1_1_0_0_n_n` the left operand's row is the result's row, -/
theorem mix_l0 (j : S128x4096.Idx) (q : dot_S128x2048_S4096x2048_S128x4096_1_1_0_0_n_n.contr.Idx) : (dot_S128x2048_S4096x2048_S128x4096_1_1_0_0_n_n.lhsIdx j q 0).val = (j 0).val := by
  unfold DotDims.lhsIdx
  rw [dif_neg (show ¬(0 : Fin S128x2048.rank) ∈ dot_S128x2048_S4096x2048_S128x4096_1_1_0_0_n_n.lhsBatch by decide), dif_pos (show (0 : Fin S128x2048.rank) ∈ dot_S128x2048_S4096x2048_S128x4096_1_1_0_0_n_n.lhsNonContracting by decide)]
  rfl
/-- its column the contraction's coordinate, -/
theorem mix_l1 (j : S128x4096.Idx) (q : dot_S128x2048_S4096x2048_S128x4096_1_1_0_0_n_n.contr.Idx) : (dot_S128x2048_S4096x2048_S128x4096_1_1_0_0_n_n.lhsIdx j q 1).val = (q ⟨0, by decide⟩).val :=
  dot_S128x2048_S4096x2048_S128x4096_1_1_0_0_n_n.lhsIdx_val_of_single rfl j q
/-- the right operand's row is the result's column, -/
theorem mix_r0 (j : S128x4096.Idx) (q : dot_S128x2048_S4096x2048_S128x4096_1_1_0_0_n_n.contr.Idx) : (dot_S128x2048_S4096x2048_S128x4096_1_1_0_0_n_n.rhsIdx j q 0).val = (j 1).val := by
  unfold DotDims.rhsIdx
  rw [dif_neg (show ¬(0 : Fin S4096x2048.rank) ∈ dot_S128x2048_S4096x2048_S128x4096_1_1_0_0_n_n.rhsBatch by decide), dif_pos (show (0 : Fin S4096x2048.rank) ∈ dot_S128x2048_S4096x2048_S128x4096_1_1_0_0_n_n.rhsNonContracting by decide)]
  rfl
/-- and its column the contraction's coordinate. -/
theorem mix_r1 (j : S128x4096.Idx) (q : dot_S128x2048_S4096x2048_S128x4096_1_1_0_0_n_n.contr.Idx) : (dot_S128x2048_S4096x2048_S128x4096_1_1_0_0_n_n.rhsIdx j q 1).val = (q ⟨0, by decide⟩).val :=
  dot_S128x2048_S4096x2048_S128x4096_1_1_0_0_n_n.rhsIdx_val_of_single rfl j q

/-! ## The first kernel's block -/

/-- Entry `(p, q)` of the block the first kernel stores is the feature of row `p` of its row block against projection row `q`. -/
theorem weightBlock_apply (x0 : Vec Ideal S512x1024 .f32) (x1 : Vec Ideal S2048x1024 .bf16) (x2 : Vec Ideal S1x2048 .f32)
    (p : Fin 512) (q : Fin 2048) :
    k0_pay1 (F := Ideal) x0 x1 x2 (ix2 p q) = feat (fun k => x0 (ix2 p k)) (fun k => x1 (ix2 q k)) (x2 (ix2 (0 : Fin 1) q)) := by
  unfold k0_pay1
  simp only [shapeCast_self]
  exact featBody_apply (R := 512) dot_S512x1024_S2048x1024_S512x2048_1_1_0_0_n_n rfl rfl rows512_l0 rows512_l1 rows512_r0 rows512_r1
    bitsLt_bf16_f32 reduces_S512x1024_S512 shapeCasts_S512_S512x1 broadcasts_S512x1_S512x2048 broadcasts_S1x2048_S512x2048 x0 x1 x2 p q

/-! ## The second kernel's block -/

/-- Entry `(p, o)` of the block the second kernel stores pairs row `p` of its row block with row `o` of the resident feature
    matrix `x3`: `Σ_m feat (row p) (proj m) (sq m) · x3[o, m]`. -/
theorem outBlock_apply (x0 : Vec Ideal S128x1024 .f32) (x1 : Vec Ideal S2048x1024 .bf16) (x2 : Vec Ideal S1x2048 .f32)
    (x3 : Vec Ideal S4096x2048 .bf16) (p : Fin 128) (o : Fin 4096) :
    k1_pay1 (F := Ideal) x0 x1 x2 x3 (ix2 p o)
      = ∑ m : Fin 2048, feat (fun k => x0 (ix2 p k)) (fun k => x1 (ix2 m k)) (x2 (ix2 (0 : Fin 1) m)) * x3 (ix2 o m) := by
  unfold k1_pay1
  simp only [shapeCast_self]
  refine (DotLastAxes.matmul_zero_apply (M := 128) (N := 4096) (K := 2048) (φ₁ := .bf16) (φ₂ := .bf16)
    dot_S128x2048_S4096x2048_S128x4096_1_1_0_0_n_n rfl rfl
    mix_l0 mix_l1 mix_r0 mix_r1 none _ (x3 : FVec Ideal S4096x2048 .bf16) p o).trans ?_
  refine Finset.sum_congr rfl fun m _ => congrArg (fun z : EReal => z * x3 (ix2 o m)) ?_
  exact featBody_apply (R := 128) dot_S128x1024_S2048x1024_S128x2048_1_1_0_0_n_n rfl rfl rows128_l0 rows128_l1 rows128_r0 rows128_r1
    bitsLt_bf16_f32 reduces_S128x1024_S128 shapeCasts_S128_S128x1 broadcasts_S128x1_S128x2048 broadcasts_S1x2048_S128x2048 x0 x1 x2 p m

end Cert.KernelIdeal.Payload

end
-- ==== Proof.Arrays.lean ====
/-
  The two arrays the kernels fill, each as one function of whole arrays.

  `featRows rows proj sq` is the `[R, 2048]` matrix of random features of the rows of `rows` `[R, 1024]`: entry
  `(r, q)` is `feat` of row `r` against projection row `q` with weight `sq[0, q]`. `pairRows rows proj sq W` is the
  `[R, 4096]` matrix pairing each row's feature vector with each row of a `[4096, 2048]` feature matrix `W`: entry
  `(r, o)` is `Σ_m feat (row r) (proj m) (sq m) · W[o, m]`. Coordinates are read through their values so that a block's
  entry and the whole array's entry can be compared by arithmetic on row numbers.
-/
import proofs.«139920_j10093173146229_2_alg».proof.Proof.Spec

noncomputable section

open scoped BigOperators

namespace Cert.RandomFeature

open Idealize.ShloMosaic Idealize.ShloMosaic.ValueIdx

/-- The random features of every row of `rows`. -/
def featRows {R : ℕ} (rows : (⟨2, ![R, 1024]⟩ : Shape).Idx → EReal) (proj : (⟨2, ![2048, 1024]⟩ : Shape).Idx → EReal)
    (sq : (⟨2, ![1, 2048]⟩ : Shape).Idx → EReal) : (⟨2, ![R, 2048]⟩ : Shape).Idx → EReal :=
  fun j => feat (fun k => rows (ix2 (⟨(j 0).val, idx2_lt0 j⟩ : Fin R) k))
    (fun k => proj (ix2 (⟨(j 1).val, idx2_lt1 j⟩ : Fin 2048) k))
    (sq (ix2 (0 : Fin 1) (⟨(j 1).val, idx2_lt1 j⟩ : Fin 2048)))

/-- Every row of `rows` paired, through its feature vector, with every row of the feature matrix `W`. -/
def pairRows {R : ℕ} (rows : (⟨2, ![R, 1024]⟩ : Shape).Idx → EReal) (proj : (⟨2, ![2048, 1024]⟩ : Shape).Idx → EReal)
    (sq : (⟨2, ![1, 2048]⟩ : Shape).Idx → EReal) (W : (⟨2, ![4096, 2048]⟩ : Shape).Idx → EReal) :
    (⟨2, ![R, 4096]⟩ : Shape).Idx → EReal :=
  fun j => ∑ m : Fin 2048, feat (fun k => rows (ix2 (⟨(j 0).val, idx2_lt0 j⟩ : Fin R) k)) (fun k => proj (ix2 m k))
      (sq (ix2 (0 : Fin 1) m)) * W (ix2 (⟨(j 1).val, idx2_lt1 j⟩ : Fin 4096) m)

end Cert.RandomFeature

end
-- ==== Proof.WeightFeatures.lean ====
/-
  The first kernel fills the feature matrix of the weight rows.

  Its grid has 8 points; point `t` reads rows `512 t … 512 t + 511` of the weight matrix, the whole projection matrix and
  the whole row of weights, and writes rows `512 t … 512 t + 511` of the `[4096, 2048]` output. What point `t` writes is
  therefore block `t` of ONE whole-array function, `featRows` of the arrays the kernel is entered with, and the eight
  blocks cover the output: row `r` lies in the block of point `r / 512`. Everything is stated for arbitrary entry
  contents `V`.
-/
import proofs.«139920_j10093173146229_2_alg».proof.Proof.Gen.KernelIdeal.Frame
import proofs.«139920_j10093173146229_2_alg».proof.Proof.Payloads
import proofs.«139920_j10093173146229_2_alg».proof.Proof.Arrays
import Idealize.ShloMosaic.Lib.Pipeline.Value

set_option maxRecDepth 16384

noncomputable section

namespace Cert.KernelIdeal.WeightFeatures

open Cert.KernelIdeal Cert.KernelIdeal.Gen Cert.RandomFeature
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row block moves with the point, the two resident operands stay at block
    `(0, 0)`, and the output block is the row block's. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the feature matrix of the weight rows the kernel is entered with. -/
theorem flushed_eq (c : Dev nD) (t : Fin cfg0.N) :
    (dat0 V c).flushed 3 t = ((cfg0.win 3).blk t).view.read (Elt Ideal)
      (featRows (R := 4096) (V c main_arg1) (V c main_v4) (V c main_v6)) := by
  show (cfg0.win 3).cut (grid0.coords t) ((dat0 V c).after 3 t) = _
  rw [after0_3]
  unfold out0_3
  rw [View.canon_unit_zero origin]
  simp only [View.ld_unit_zero (S := S512x1024) origin, View.ld_unit_zero (S := S2048x1024) origin,
    View.ld_unit_zero (S := S1x2048) origin]
  obtain ⟨e00, e01, e10, e11, e20, e21, e30, e31⟩ := index_maps t
  funext j
  obtain ⟨p, q, rfl⟩ : ∃ (p : Fin 512) (q : Fin 2048), j = ix2 p q := ⟨j 0, j 1, eq_ix2 j⟩
  show k0_pay1 (iblk0 V c 0 t) (iblk0 V c 1 t) (iblk0 V c 2 t) (ix2 p q)
      = featRows (R := 4096) (V c main_arg1) (V c main_v4) (V c main_v6) (((cfg0.win 3).blk t).view.emb (ix2 p q))
  refine (Payload.weightBlock_apply (iblk0 V c 0 t) (iblk0 V c 1 t) (iblk0 V c 2 t) p q).trans ?_
  unfold featRows
  have hrow : (fun k : Fin 1024 => (iblk0 V c 0 t : S512x1024.Idx → EReal) (ix2 p k))
      = fun k : Fin 1024 => (V c main_arg1 : S4096x1024.Idx → EReal)
          (ix2 (⟨((((cfg0.win 3).blk t).view.emb (ix2 p q)) 0).val, idx2_lt0 _⟩ : Fin 4096) k) := funext fun k => by
    show (V c main_arg1 : S4096x1024.Idx → EReal) (((cfg0.win 0).blk t).view.emb (ix2 p k)) = _
    refine congrArg (V c main_arg1 : S4096x1024.Idx → EReal) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * k.val = k.val; omega
  have hproj : (fun k : Fin 1024 => (iblk0 V c 1 t : S2048x1024.Idx → EReal) (ix2 q k))
      = fun k : Fin 1024 => (V c main_v4 : S2048x1024.Idx → EReal)
          (ix2 (⟨((((cfg0.win 3).blk t).view.emb (ix2 p q)) 1).val, idx2_lt1 _⟩ : Fin 2048) k) := funext fun k => by
    show (V c main_v4 : S2048x1024.Idx → EReal) (((cfg0.win 1).blk t).view.emb (ix2 q k)) = _
    refine congrArg (V c main_v4 : S2048x1024.Idx → EReal) (funext fun a => Fin.ext ?_)
    match a with
    | ⟨0, _⟩ => show win0_1.index t (0 : Fin 2) * 2048 + 1 * q.val = win0_3.index t (1 : Fin 2) * 2048 + 1 * q.val; omega
    | ⟨1, _⟩ => show win0_1.index t (1 : Fin 2) * 1024 + 1 * k.val = k.val; omega
  have hsq : (iblk0 V c 2 t : S1x2048.Idx → EReal) (ix2 (0 : Fin 1) q)
      = (V c main_v6 : S1x2048.Idx → EReal)
          (ix2 (0 : Fin 1) (⟨((((cfg0.win 3).blk t).view.emb (ix2 p q)) 1).val, idx2_lt1 _⟩ : Fin 2048)) := by
    show (V c main_v6 : S1x2048.Idx → EReal) (((cfg0.win 2).blk t).view.emb (ix2 (0 : Fin 1) q)) = _
    refine congrArg (V c main_v6 : S1x2048.Idx → EReal) (funext fun a => Fin.ext ?_)
    match a with
    | ⟨0, _⟩ => show win0_2.index t (0 : Fin 2) * 1 + 1 * 0 = 0; omega
    | ⟨1, _⟩ => show win0_2.index t (1 : Fin 2) * 2048 + 1 * q.val = win0_3.index t (1 : Fin 2) * 2048 + 1 * q.val; omega
  have key : ∀ (f f' g g' : Fin 1024 → EReal) (a a' : EReal), f = f' → g = g' → a = a' → feat f g a = feat f' g' a' := by
    intro f f' g g' a a' h1 h2 h3; rw [h1, h2, h3]
  exact key _ _ _ _ _ _ hrow hproj hsq

/-- An index of the output lies in point `t`'s block iff each coordinate lies in the block's range on its axis. -/
theorem mem_blk (t : Fin cfg0.N) (i : S4096x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v7).slice (win0_3.rect t)).set ↔ _
  rw [View.set_slice_whole, Rect.mem_set_unit]
  exact Iff.rfl

/-- The eight blocks cover the output: row `r` is written by point `r / 512`. -/
theorem cover (i : S4096x2048.Idx) : ∃ t : Fin cfg0.N, (cfg0.win 3).flush t = true ∧ i ∈ ((cfg0.win 3).blk t).view.set := by
  have hi0 : (i 0).val < 4096 := (i 0).isLt
  have hi1 : (i 1).val < 2048 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, e30, e31⟩ := index_maps t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- THE OUTPUT ARRAY after the first kernel: the feature matrix of the weight rows it was entered with. -/
theorem final (c : Dev nD) :
    (dat0 V c).arrAt 3 cfg0.N = featRows (R := 4096) (V c main_arg1) (V c main_v4) (V c main_v6) :=
  (dat0 V c).arrAt_eq_of_cover 3 _ (fun t _ => flushed_eq V c t) cover

end Cert.KernelIdeal.WeightFeatures

end
-- ==== Proof.PairedOutput.lean ====
/-
  The second kernel fills the pairing of the rows of `x` with the weights' feature matrix.

  Its grid has 64 points; point `t` reads rows `128 t … 128 t + 127` of the flattened `x`, and — whole — the projection
  matrix, the row of weights and the `[4096, 2048]` feature matrix of the weight rows, and writes rows
  `128 t … 128 t + 127` of the `[8192, 4096]` output. What point `t` writes is block `t` of ONE whole-array function,
  `pairRows` of the arrays the kernel is entered with, and the 64 blocks cover the output: row `r` lies in the block of
  point `r / 128`. Everything is stated for arbitrary entry contents `V`.
-/
import proofs.«139920_j10093173146229_2_alg».proof.Proof.Gen.KernelIdeal.Frame
import proofs.«139920_j10093173146229_2_alg».proof.Proof.Payloads
import proofs.«139920_j10093173146229_2_alg».proof.Proof.Arrays
import Idealize.ShloMosaic.Lib.Pipeline.Value

set_option maxRecDepth 16384

noncomputable section

open scoped BigOperators

namespace Cert.KernelIdeal.PairedOutput

open Cert.KernelIdeal Cert.KernelIdeal.Gen Cert.RandomFeature
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row block moves with the point, the three resident operands stay at block
    `(0, 0)`, and the output block is the row block's. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the pairing of the flattened rows with the resident feature matrix. -/
theorem flushed_eq (c : Dev nD) (t : Fin cfg1.N) :
    (dat1 V c).flushed 4 t = ((cfg1.win 4).blk t).view.read (Elt Ideal)
      (pairRows (R := 8192) (V c main_v0) (V c main_v4) (V c main_v6) (V c main_v7)) := by
  show (cfg1.win 4).cut (grid1.coords t) ((dat1 V c).after 4 t) = _
  rw [after1_4]
  unfold out1_4
  rw [View.canon_unit_zero origin]
  simp only [View.ld_unit_zero (S := S128x1024) origin, View.ld_unit_zero (S := S2048x1024) origin,
    View.ld_unit_zero (S := S1x2048) origin, View.ld_unit_zero (S := S4096x2048) origin]
  obtain ⟨e00, e01, e10, e11, e20, e21, e30, e31, e40, e41⟩ := index_maps t
  funext j
  obtain ⟨p, o, rfl⟩ : ∃ (p : Fin 128) (o : Fin 4096), j = ix2 p o := ⟨j 0, j 1, eq_ix2 j⟩
  show k1_pay1 (iblk1 V c 0 t) (iblk1 V c 1 t) (iblk1 V c 2 t) (iblk1 V c 3 t) (ix2 p o)
      = pairRows (R := 8192) (V c main_v0) (V c main_v4) (V c main_v6) (V c main_v7) (((cfg1.win 4).blk t).view.emb (ix2 p o))
  refine (Payload.outBlock_apply (iblk1 V c 0 t) (iblk1 V c 1 t) (iblk1 V c 2 t) (iblk1 V c 3 t) p o).trans ?_
  unfold pairRows
  refine Finset.sum_congr rfl fun q _ => ?_
  have hrow : (fun k : Fin 1024 => (iblk1 V c 0 t : S128x1024.Idx → EReal) (ix2 p k))
      = fun k : Fin 1024 => (V c main_v0 : S8192x1024.Idx → EReal)
          (ix2 (⟨((((cfg1.win 4).blk t).view.emb (ix2 p o)) 0).val, idx2_lt0 _⟩ : Fin 8192) k) := funext fun k => by
    show (V c main_v0 : S8192x1024.Idx → EReal) (((cfg1.win 0).blk t).view.emb (ix2 p k)) = _
    refine congrArg (V c main_v0 : S8192x1024.Idx → EReal) (funext fun a => Fin.ext ?_)
    match a with
    | ⟨0, _⟩ => show win1_0.index t (0 : Fin 2) * 128 + 1 * p.val = win1_4.index t (0 : Fin 2) * 128 + 1 * p.val; omega
    | ⟨1, _⟩ => show win1_0.index t (1 : Fin 2) * 1024 + 1 * k.val = k.val; omega
  have hproj : (fun k : Fin 1024 => (iblk1 V c 1 t : S2048x1024.Idx → EReal) (ix2 q k))
      = fun k : Fin 1024 => (V c main_v4 : S2048x1024.Idx → EReal) (ix2 q k) := funext fun k => by
    show (V c main_v4 : S2048x1024.Idx → EReal) (((cfg1.win 1).blk t).view.emb (ix2 q k)) = _
    refine congrArg (V c main_v4 : S2048x1024.Idx → EReal) (funext fun a => Fin.ext ?_)
    match a with
    | ⟨0, _⟩ => show win1_1.index t (0 : Fin 2) * 2048 + 1 * q.val = q.val; omega
    | ⟨1, _⟩ => show win1_1.index t (1 : Fin 2) * 1024 + 1 * k.val = k.val; omega
  have hsq : (iblk1 V c 2 t : S1x2048.Idx → EReal) (ix2 (0 : Fin 1) q)
      = (V c main_v6 : S1x2048.Idx → EReal) (ix2 (0 : Fin 1) q) := by
    show (V c main_v6 : S1x2048.Idx → EReal) (((cfg1.win 2).blk t).view.emb (ix2 (0 : Fin 1) q)) = _
    refine congrArg (V c main_v6 : S1x2048.Idx → EReal) (funext fun a => Fin.ext ?_)
    match a with
    | ⟨0, _⟩ => show win1_2.index t (0 : Fin 2) * 1 + 1 * 0 = 0; omega
    | ⟨1, _⟩ => show win1_2.index t (1 : Fin 2) * 2048 + 1 * q.val = q.val; omega
  have hW : (iblk1 V c 3 t : S4096x2048.Idx → EReal) (ix2 o q)
      = (V c main_v7 : S4096x2048.Idx → EReal)
          (ix2 (⟨((((cfg1.win 4).blk t).view.emb (ix2 p o)) 1).val, idx2_lt1 _⟩ : Fin 4096) q) := by
    show (V c main_v7 : S4096x2048.Idx → EReal) (((cfg1.win 3).blk t).view.emb (ix2 o q)) = _
    refine congrArg (V c main_v7 : S4096x2048.Idx → EReal) (funext fun a => Fin.ext ?_)
    match a with
    | ⟨0, _⟩ => show win1_3.index t (0 : Fin 2) * 4096 + 1 * o.val = win1_4.index t (1 : Fin 2) * 4096 + 1 * o.val; omega
    | ⟨1, _⟩ => show win1_3.index t (1 : Fin 2) * 2048 + 1 * q.val = q.val; omega
  have key : ∀ (f f' g g' : Fin 1024 → EReal) (a a' w w' : EReal), f = f' → g = g' → a = a' → w = w' →
      feat f g a * w = feat f' g' a' * w' := by
    intro f f' g g' a a' w w' h1 h2 h3 h4; rw [h1, h2, h3, h4]
  exact key _ _ _ _ _ _ _ _ hrow hproj hsq hW

/-- An index of the output lies in point `t`'s block iff each coordinate lies in the block's range on its axis. -/
theorem mem_blk (t : Fin cfg1.N) (i : S8192x4096.Idx) :
    i ∈ ((cfg1.win 4).blk t).view.set ↔ ∀ a : Fin 2, win1_4.index t a * S128x4096.size a ≤ (i a).val
      ∧ (i a).val < win1_4.index t a * S128x4096.size a + S128x4096.size a := by
  show i ∈ ((View.whole main_v8).slice (win1_4.rect t)).set ↔ _
  rw [View.set_slice_whole, Rect.mem_set_unit]
  exact Iff.rfl

/-- The 64 blocks cover the output: row `r` is written by point `r / 128`. -/
theorem cover (i : S8192x4096.Idx) : ∃ t : Fin cfg1.N, (cfg1.win 4).flush t = true ∧ i ∈ ((cfg1.win 4).blk t).view.set := by
  have hi0 : (i 0).val < 8192 := (i 0).isLt
  have hi1 : (i 1).val < 4096 := (i 1).isLt
  have hN : cfg1.N = 64 := N_1
  obtain ⟨t, ht⟩ : ∃ t : Fin cfg1.N, t.val = (i 0).val / 128 := ⟨⟨(i 0).val / 128, by rw [hN]; omega⟩, rfl⟩
  obtain ⟨-, -, -, -, -, -, -, -, e40, e41⟩ := index_maps t
  refine ⟨t, flush1_4 t, ?_⟩
  rw [mem_blk]
  intro a
  match a with
  | ⟨0, _⟩ =>
    show win1_4.index t (0 : Fin 2) * 128 ≤ (i 0).val ∧ (i 0).val < win1_4.index t (0 : Fin 2) * 128 + 128
    omega
  | ⟨1, _⟩ =>
    show win1_4.index t (1 : Fin 2) * 4096 ≤ (i 1).val ∧ (i 1).val < win1_4.index t (1 : Fin 2) * 4096 + 4096
    omega

/-- THE OUTPUT ARRAY after the second kernel: the rows it was entered with, paired with the resident feature matrix. -/
theorem final (c : Dev nD) :
    (dat1 V c).arrAt 4 cfg1.N = pairRows (R := 8192) (V c main_v0) (V c main_v4) (V c main_v6) (V c main_v7) :=
  (dat1 V c).arrAt_eq_of_cover 4 _ (fun t _ => flushed_eq V c t) cover

end Cert.KernelIdeal.PairedOutput

end
-- ==== Proof.KernelValue.lean ====
/-
  The kernel program's result is `result` of its four arguments.

  The result buffer is the reshape of the second kernel's output, which is `pairRows` of the arrays that kernel is
  entered with. Of those, the flattened `x`, the projection matrix and the row of weights are still what the host
  operations wrote before the first kernel (the first kernel only reads the last two and does not touch the first), and
  the fourth is the first kernel's output, `featRows` of the weight matrix. Reading each host array at an index turns
  entry `(b, s, o)` into the pairing of row `(b, s)` of `x` with row `o` of the weight matrix.
-/
import proofs.«139920_j10093173146229_2_alg».proof.Proof.Gen.KernelIdeal.Frame
import proofs.«139920_j10093173146229_2_alg».proof.Proof.HostStretch
import proofs.«139920_j10093173146229_2_alg».proof.Proof.WeightFeatures
import proofs.«139920_j10093173146229_2_alg».proof.Proof.PairedOutput

set_option maxRecDepth 16384

noncomputable section

open scoped BigOperators

namespace Cert.KernelIdeal.KernelValue

open Cert.KernelIdeal Cert.KernelIdeal.Gen Cert.RandomFeature Cert.KernelIdeal.HostStretch
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What the second kernel is entered with -/

/-- The flattened `x` is no array of the first kernel: it is as the host operations left it. -/
theorem entry_rows (c : Dev nD) : V2 m ρ c main_v0 = V1 m ρ c main_v0 := W2_of_ne m ρ c main_v0 (by decide)

/-- The projection matrix is an input of the first kernel, which leaves it as it found it. -/
theorem entry_proj (c : Dev nD) : V2 m ρ c main_v4 = V1 m ρ c main_v4 :=
  (W2_arr m ρ c 1).trans (((dat0 (V1 m ρ) c).arrAt_in 1 rfl _).trans (A_eq0 (V1 m ρ) c 1))

/-- So is the row of weights. -/
theorem entry_sq (c : Dev nD) : V2 m ρ c main_v6 = V1 m ρ c main_v6 :=
  (W2_arr m ρ c 2).trans (((dat0 (V1 m ρ) c).arrAt_in 2 rfl _).trans (A_eq0 (V1 m ρ) c 2))

/-- The resident feature matrix is the first kernel's output. -/
theorem entry_feat (c : Dev nD) :
    V2 m ρ c main_v7 = featRows (R := 4096) (V1 m ρ c main_arg1) (V1 m ρ c main_v4) (V1 m ρ c main_v6) :=
  (W2_arr m ρ c 3).trans (WeightFeatures.final (V1 m ρ) c)

/-! ## The result -/

/-- Row `2048 b + s` of the flattened `x` is row `(b, s)` of `x`. -/
theorem flat_row (c : Dev nD) (b : Fin 4) (s : Fin 2048) (k : Fin 1024) :
    (V1 m ρ c main_v0 : S8192x1024.Idx → EReal) (ix2 (⟨b.val * 2048 + s.val, by omega⟩ : Fin 8192) k) = argX m c (ix3 b s k) :=
  (flatRows_apply m ρ c _ k).trans (congrArg (argX m c) (funext fun a => Fin.ext (by
    match a with
    | ⟨0, _⟩ => show (b.val * 2048 + s.val) / 2048 = b.val; omega
    | ⟨1, _⟩ => show (b.val * 2048 + s.val) % 2048 = s.val; omega
    | ⟨2, _⟩ => rfl)))

/-- THE KERNEL PROGRAM'S RESULT, as one function of the arguments as launched. -/
theorem result_eq (c : Dev nD) :
    (W4 m ρ c (Proc.devRef .tc main_v9) : S4x2048x4096.Idx → EReal) = result (argX m c) (argW m c) (argXi m c) (argG m c) := by
  funext i
  obtain ⟨b, s, o, rfl⟩ : ∃ (b : Fin 4) (s : Fin 2048) (o : Fin 4096), i = ix3 b s o := ⟨i 0, i 1, i 2, eq_ix3 i⟩
  refine (result_apply m ρ c b s o).trans ?_
  have h8 : (W3 m ρ c (Proc.devRef .tc main_v8) : S8192x4096.Idx → EReal)
      = pairRows (R := 8192) (V2 m ρ c main_v0) (V2 m ρ c main_v4) (V2 m ρ c main_v6) (V2 m ρ c main_v7) :=
    (W3_arr m ρ c 4).trans (PairedOutput.final (V2 m ρ) c)
  rw [h8, entry_rows, entry_proj, entry_sq, entry_feat]
  unfold pairRows result paired
  show (_ : EReal) = _
  refine Finset.sum_congr rfl fun q _ => ?_
  show feat (fun k => (V1 m ρ c main_v0 : S8192x1024.Idx → EReal) (ix2 (⟨b.val * 2048 + s.val, by omega⟩ : Fin 8192) k))
        (fun k => (V1 m ρ c main_v4 : S2048x1024.Idx → EReal) (ix2 q k)) ((V1 m ρ c main_v6 : S1x2048.Idx → EReal) (ix2 (0 : Fin 1) q))
      * feat (fun k => (V1 m ρ c main_arg1 : S4096x1024.Idx → EReal) (ix2 o k))
          (fun k => (V1 m ρ c main_v4 : S2048x1024.Idx → EReal) (ix2 q k)) ((V1 m ρ c main_v6 : S1x2048.Idx → EReal) (ix2 (0 : Fin 1) q))
      = feat (fun k => argX m c (ix3 b s k)) (projRow (argXi m c) (argG m c) q) (sqWeight (argXi m c) q)
        * feat (fun k => argW m c (ix2 o k)) (projRow (argXi m c) (argG m c) q) (sqWeight (argXi m c) q)
  have hrow : (fun k : Fin 1024 => (V1 m ρ c main_v0 : S8192x1024.Idx → EReal) (ix2 (⟨b.val * 2048 + s.val, by omega⟩ : Fin 8192) k))
      = fun k => argX m c (ix3 b s k) := funext fun k => flat_row m ρ c b s k
  have hproj : (fun k : Fin 1024 => (V1 m ρ c main_v4 : S2048x1024.Idx → EReal) (ix2 q k)) = projRow (argXi m c) (argG m c) q :=
    funext fun k => proj_apply m ρ c q k
  have hsq : (V1 m ρ c main_v6 : S1x2048.Idx → EReal) (ix2 (0 : Fin 1) q) = sqWeight (argXi m c) q := sq_apply m ρ c 0 q
  have hw : (fun k : Fin 1024 => (V1 m ρ c main_arg1 : S4096x1024.Idx → EReal) (ix2 o k)) = fun k => argW m c (ix2 o k) :=
    funext fun k => congrFun (weightRows_eq m ρ c) (ix2 o k)
  have key : ∀ (f f' g g' h h' : Fin 1024 → EReal) (a a' : EReal), f = f' → g = g' → a = a' → h = h' →
      feat f g a * feat h g a = feat f' g' a' * feat h' g' a' := by
    intro f f' g g' h h' a a' h1 h2 h3 h4; rw [h1, h2, h3, h4]
  exact key _ _ _ _ _ _ _ _ hrow hproj hsq hw

end Cert.KernelIdeal.KernelValue

end
-- ==== Proof.ReferenceValue.lean ====
/-
  The reference computes `result` of its four arguments.

  The reference forms the feature matrix of the weight rows and the feature tensor of the rows of `x` with the same
  operations — the inner products by `dot_general`, the row sums by a reduction started from zero, the broadcasts of
  the half, of `ξ²` and of the scale — and contracts the feature axis of the two. Its scale is the scale word times a
  broadcast `1.0`; on the extended reals that is the scale itself, and a sum started from `0` is the sum. Read at an
  index, stage by stage, each feature is `feat` and the final contraction is `paired`.
-/
import proofs.«139920_j10093173146229_2_alg».proof.Proof.Gen.ReferenceIdeal.Read
import proofs.«139920_j10093173146229_2_alg».proof.Proof.Spec

noncomputable section

open scoped BigOperators

namespace Cert.ReferenceIdeal.RefValue

open Cert.ReferenceIdeal Cert.ReferenceIdeal.Read Cert.RandomFeature
open Idealize.ShloMosaic Idealize.ShloMosaic.ValueIdx

/-- The word of `1.0` denotes the extended real `1`. -/
theorem one_word : Ideal.ofBits .f32 0x3F800000#32 = 1 := by
  simp [Ideal.ofBits, Ideal.ieee, -EReal.coe_mul]; norm_num

/-- The reference's feature matrix of the weight rows: entry `(o, q)` is the feature of weight row `o` against projection row `q`. -/
theorem weights_apply (x1 : S4096x1024.Idx → EReal) (x2 : S2048.Idx → EReal) (x3 : S2048x1024.Idx → EReal)
    (o : Fin 4096) (q : Fin 2048) :
    val_main_v21 (F := Ideal) x1 x2 x3 (ix2 o q) = feat (fun k => x1 (ix2 o k)) (projRow x2 x3 q) (sqWeight x2 q) := by
  simp only [val_main_v21_apply, val_main_v20_apply, val_main_v19_apply, val_main_v16_apply, val_main_v15_apply,
    val_main_cst_2_apply, val_main_v0_apply, val_main_cst_apply, val_main_v18_apply, val_main_v17_apply, val_main_v4_apply,
    val_main_v3_apply, val_main_v2_apply, val_main_v1_apply, val_main_v14_apply, val_main_v12_apply, val_main_v9_apply,
    val_main_v8_apply, val_main_cst_1_apply, val_main_v7_apply, val_main_v6_apply, val_main_cst_0_apply, val_main_v5_apply,
    val_main_v13_apply, val_main_v11_apply, val_main_v10_apply]
  have i1 : ∀ k : Fin 1024, lidx_main_v4 (ix2 o q) k = ix2 o k := fun k => funext fun a => Fin.ext (by
    match a with | ⟨0, _⟩ => rfl | ⟨1, _⟩ => rfl)
  have i2 : ∀ k : Fin 1024, ridx_main_v4 (ix2 o q) k = ix2 q k := fun k => funext fun a => Fin.ext (by
    match a with | ⟨0, _⟩ => rfl | ⟨1, _⟩ => rfl)
  have i3 : ∀ k : Fin 1024, idx_main_v1 (idx_main_v2 (ix2 q k)) = ix1 q := fun k => funext fun a => Fin.ext (by
    match a with | ⟨0, _⟩ => rfl)
  have i4 : ∀ k : Fin 1024, idx_main_v6 (idx_main_v7 (idx_main_v12 (ix2 o q))) k = ix2 o k := fun k => funext fun a => Fin.ext (by
    match a with | ⟨0, _⟩ => rfl | ⟨1, _⟩ => rfl)
  have i5 : idx_main_v11 (idx_main_v13 (ix2 o q)) = ix1 q := funext fun a => Fin.ext (by
    match a with | ⟨0, _⟩ => rfl)
  simp only [i1, i2, i3, i4, i5, Ideal.mulf_def, Ideal.subf_def, Ideal.hostUnary_exp_def, Ideal.ofBits_def,
    Ideal.ofBits_zero_f32, one_word, mul_one, zero_add]
  rfl

/-- The reference's feature tensor of the rows of `x`: entry `(b, s, q)` is the feature of row `(b, s)` against projection row `q`. -/
theorem phi_apply (x0 : S4x2048x1024.Idx → EReal) (x2 : S2048.Idx → EReal) (x3 : S2048x1024.Idx → EReal)
    (b : Fin 4) (s : Fin 2048) (q : Fin 2048) :
    val_main_v42 (F := Ideal) x0 x2 x3 (ix3 b s q) = feat (fun k => x0 (ix3 b s k)) (projRow x2 x3 q) (sqWeight x2 q) := by
  simp only [val_main_v42_apply, val_main_v41_apply, val_main_v40_apply, val_main_v37_apply, val_main_v36_apply,
    val_main_cst_5_apply, val_main_v0_apply, val_main_cst_apply, val_main_v39_apply, val_main_v38_apply, val_main_v25_apply,
    val_main_v24_apply, val_main_v23_apply, val_main_v22_apply, val_main_v35_apply, val_main_v33_apply, val_main_v30_apply,
    val_main_v29_apply, val_main_cst_4_apply, val_main_v28_apply, val_main_v27_apply, val_main_cst_3_apply, val_main_v26_apply,
    val_main_v34_apply, val_main_v32_apply, val_main_v31_apply]
  have i1 : ∀ k : Fin 1024, lidx_main_v25 (ix3 b s q) k = ix3 b s k := fun k => funext fun a => Fin.ext (by
    match a with | ⟨0, _⟩ => rfl | ⟨1, _⟩ => rfl | ⟨2, _⟩ => rfl)
  have i2 : ∀ k : Fin 1024, ridx_main_v25 (ix3 b s q) k = ix2 q k := fun k => funext fun a => Fin.ext (by
    match a with | ⟨0, _⟩ => rfl | ⟨1, _⟩ => rfl)
  have i3 : ∀ k : Fin 1024, idx_main_v22 (idx_main_v23 (ix2 q k)) = ix1 q := fun k => funext fun a => Fin.ext (by
    match a with | ⟨0, _⟩ => rfl)
  have i4 : ∀ k : Fin 1024, idx_main_v27 (idx_main_v28 (idx_main_v33 (ix3 b s q))) k = ix3 b s k := fun k => funext fun a => Fin.ext (by
    match a with | ⟨0, _⟩ => rfl | ⟨1, _⟩ => rfl | ⟨2, _⟩ => rfl)
  have i5 : idx_main_v32 (idx_main_v34 (ix3 b s q)) = ix1 q := funext fun a => Fin.ext (by
    match a with | ⟨0, _⟩ => rfl)
  simp only [i1, i2, i3, i4, i5, Ideal.mulf_def, Ideal.subf_def, Ideal.hostUnary_exp_def, Ideal.ofBits_def,
    Ideal.ofBits_zero_f32, one_word, mul_one, zero_add]
  rfl

/-- THE REFERENCE'S RESULT, as one function of its arguments. -/
theorem result_eq (x0 : S4x2048x1024.Idx → EReal) (x1 : S4096x1024.Idx → EReal) (x2 : S2048.Idx → EReal) (x3 : S2048x1024.Idx → EReal) :
    val_main_v43 (F := Ideal) x0 x1 x2 x3 = result x0 x1 x2 x3 := by
  funext i
  obtain ⟨b, s, o, rfl⟩ : ∃ (b : Fin 4) (s : Fin 2048) (o : Fin 4096), i = ix3 b s o := ⟨i 0, i 1, i 2, eq_ix3 i⟩
  rw [val_main_v43_apply]
  unfold result paired
  refine Finset.sum_congr rfl fun q _ => ?_
  have l : lidx_main_v43 (ix3 b s o) q = ix3 b s q := funext fun a => Fin.ext (by
    match a with | ⟨0, _⟩ => rfl | ⟨1, _⟩ => rfl | ⟨2, _⟩ => rfl)
  have r : ridx_main_v43 (ix3 b s o) q = ix2 o q := funext fun a => Fin.ext (by
    match a with | ⟨0, _⟩ => rfl | ⟨1, _⟩ => rfl)
  rw [l, r, phi_apply, weights_apply]

end Cert.ReferenceIdeal.RefValue

end
-- ==== Proof.lean ====
/-
  Both programs compute the random-feature pairing of the rows of `x` with the rows of the weight matrix.

  For a row `v` of 1024 numbers, a projection row `g` and a weight `a`, let
      feat v g a = c · exp (⟨v, g⟩ − (½ · ⟨v, v⟩) · a),      c the float nearest 1/√2048,
  and let projection row `m` be row `m` of the random matrix rescaled by `ξ_m`, with weight `ξ_m²`. Both programs return
      result[b, s, o] = Σ_m feat x[b, s, ·] (proj m) (ξ_m²) · feat w[o, ·] (proj m) (ξ_m²).
  The kernel program does it in two pipelined kernels around host reshapes: the first fills the `[4096, 2048]` feature
  matrix of the weight rows, 512 rows at a point; the second recomputes the features of 128 rows of the flattened `x` at a
  point and contracts them against that matrix. The reference does it with three `dot_general`s. On the extended reals
  the two differ only in spelling: a change of float format is the identity, a matrix product is the sum it abbreviates,
  and the reference's extra factor `1.0` on the scale is `1`. No entry needs to be finite for this, so the precondition
  is not used. The kernel side is read off its run block by block (`KernelValue`), the reference side off its run stage
  by stage (`ReferenceValue`); both are `Cert.RandomFeature.result` of the arguments.
-/
import proofs.«139920_j10093173146229_2_alg».proof.Defs
import proofs.«139920_j10093173146229_2_alg».proof.Proof.Gen.Kernel
import proofs.«139920_j10093173146229_2_alg».proof.Proof.Gen.Kernel.Skeleton
import proofs.«139920_j10093173146229_2_alg».proof.Proof.Gen.Kernel.Launch
import proofs.«139920_j10093173146229_2_alg».proof.Proof.Gen.Kernel.Points
import proofs.«139920_j10093173146229_2_alg».proof.Proof.Gen.Kernel.Frame
import proofs.«139920_j10093173146229_2_alg».proof.Proof.Gen.KernelIdeal
import proofs.«139920_j10093173146229_2_alg».proof.Proof.Gen.KernelIdeal.Skeleton
import proofs.«139920_j10093173146229_2_alg».proof.Proof.Gen.KernelIdeal.Launch
import proofs.«139920_j10093173146229_2_alg».proof.Proof.Gen.KernelIdeal.Points
import proofs.«139920_j10093173146229_2_alg».proof.Proof.Gen.KernelIdeal.Frame
import proofs.«139920_j10093173146229_2_alg».proof.Proof.Gen.ReferenceIdeal
import proofs.«139920_j10093173146229_2_alg».proof.Proof.Gen.ReferenceIdeal.Run
import proofs.«139920_j10093173146229_2_alg».proof.Proof.Gen.ReferenceIdeal.Read
import proofs.«139920_j10093173146229_2_alg».proof.Proof.Gen.Pre_finite_inputs
import proofs.«139920_j10093173146229_2_alg».proof.Proof.KernelRun
import proofs.«139920_j10093173146229_2_alg».proof.Proof.KernelValue
import proofs.«139920_j10093173146229_2_alg».proof.Proof.ReferenceValue
import Idealize.ShloMosaic.Adequacy
import Idealize.ShloMosaic.Init

noncomputable section

namespace Cert.Proof

open Idealize.ShloMosaic Idealize.SL.Sem

/-- The kernel program as printed runs and gives its arguments back. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and gives its arguments back: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both idealized programs end with the result buffer at `result` of the
    arguments: the kernel program by its run read block by block, the reference by its run read stage by stage. -/
theorem algebraic : Cert.algebraic_KernelIdeal_ReferenceIdeal := by
  intro m ρ m' ρ' _ hagree
  refine ⟨fun c => Cert.RandomFeature.result (Cert.KernelIdeal.HostStretch.argX m c) (Cert.KernelIdeal.HostStretch.argW m c)
    (Cert.KernelIdeal.HostStretch.argXi m c) (Cert.KernelIdeal.HostStretch.argG m c), ?_, ?_⟩
  · exact (θ_run Cert.KernelIdeal.defs _ _).mono
      (fun r h c => ⟨(h c).1.trans (Cert.KernelIdeal.KernelValue.result_eq m ρ c), (h c).2⟩)
      (Cert.KernelIdeal.RunValue.run_main m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v43_eq _ _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
